-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x128 : Shape := ⟨3, ![8, 4096, 128]⟩
abbrev S_ : Shape := ⟨0, ![]⟩

class Facts : Prop where
  bcast_S_S8x4096x128 : S_.BroadcastsInDim S8x4096x128 (![] : Fin 0 → Fin S8x4096x128.rank)
  reducesTo_S8x4096x128_S_d0_1_2 : S8x4096x128.ReducesTo [0, 1, 2] S_
  h_S_ : 0 < S_.numel

variable [Facts]

def fn {F : FTy → Type} [FloatOps F] (main_arg0 : FVec F S8x4096x128 .f32) (main_arg1 : FVec F S8x4096x128 .f32) : IVec S_ 1 :=
  let main_v0 : FVec F S8x4096x128 .f32 := Host.absf main_arg0
  let main_cst : FVec F S_ .f32 := constant S_ .f32 0x7F800000#32
  let main_v1 : FVec F S8x4096x128 .f32 := broadcastInDim S8x4096x128 ![] bcast_S_S8x4096x128 main_cst
  let main_v2 : IVec S8x4096x128 1 := cmpf .olt main_v0 main_v1
  let main_c : IVec S_ 1 := constantI S_ 1 1#1
  let main_v3 : IVec S_ 1 := (fun x v => Host.reduce IntOp.andi x v reducesTo_S8x4096x128_S_d0_1_2 h_S_) main_v2 main_c
  let main_v4 : FVec F S8x4096x128 .f32 := Host.absf main_arg1
  let main_cst_0 : FVec F S_ .f32 := constant S_ .f32 0x7F800000#32
  let main_v5 : FVec F S8x4096x128 .f32 := broadcastInDim S8x4096x128 ![] bcast_S_S8x4096x128 main_cst_0
  let main_v6 : IVec S8x4096x128 1 := cmpf .olt main_v4 main_v5
  let main_c_1 : IVec S_ 1 := constantI S_ 1 1#1
  let main_v7 : IVec S_ 1 := (fun x v => Host.reduce IntOp.andi x v reducesTo_S8x4096x128_S_d0_1_2 h_S_) main_v6 main_c_1
  let main_v8 : IVec S_ 1 := andi main_v3 main_v7
  main_v8
-- ==== Kernel.lean ====
abbrev S8x4096x128 : Shape := ⟨3, ![8, 4096, 128]⟩
abbrev S8x4096x4096 : Shape := ⟨3, ![8, 4096, 4096]⟩
abbrev S1x512x128 : Shape := ⟨3, ![1, 512, 128]⟩
abbrev S1x4096x128 : Shape := ⟨3, ![1, 4096, 128]⟩
abbrev S1x512x4096 : Shape := ⟨3, ![1, 512, 4096]⟩
abbrev S512x128 : Shape := ⟨2, ![512, 128]⟩
abbrev S4096x128 : Shape := ⟨2, ![4096, 128]⟩
abbrev S512x4096 : Shape := ⟨2, ![512, 4096]⟩

abbrev nBuf : Space → Nat
  | .hbm => 3
  | .vmem => 6
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x4096, .f32⟩
  | .local _ .vmem, ⟨0, _⟩ => ⟨S1x512x128, .f32⟩
  | .local _ .vmem, ⟨1, _⟩ => ⟨S1x512x128, .f32⟩
  | .local _ .vmem, ⟨2, _⟩ => ⟨S1x4096x128, .f32⟩
  | .local _ .vmem, ⟨3, _⟩ => ⟨S1x4096x128, .f32⟩
  | .local _ .vmem, ⟨4, _⟩ => ⟨S1x512x4096, .f32⟩
  | .local _ .vmem, ⟨5, _⟩ => ⟨S1x512x4096, .f32⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  bitsLt_bf16_f32 : FTy.bits .bf16 < FTy.bits .f32
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  shapeCasts_S512x4096_S1x512x4096 : S512x4096.ShapeCasts S1x512x4096
  dot_S512x128_S4096x128_S512x4096_1_1_0_0_n_n_wf : DotDims.WF S512x128 S4096x128 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x128.size a ≤ S8x4096x128.size a
  hwx0_0 : ∀ i : grid0.Coords, EltTy.bits .f32 = 32 ∨ (Rect.block (s := S8x4096x128) S1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4096x128.size a ≤ S8x4096x128.size a
  hwx0_1 : ∀ i : grid0.Coords, EltTy.bits .f32 = 32 ∨ (Rect.block (s := S8x4096x128) S1x4096x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x4096.size a ≤ S8x4096x4096.size a
  hwx0_2 : ∀ i : grid0.Coords, EltTy.bits .f32 = 32 ∨ (Rect.block (s := S8x4096x4096) S1x512x4096.size (cc0_transform_2 i) (hinb0_2 i)).WholeWords (EltTy.packing .f32)

variable [Facts₀]

def dot_S512x128_S4096x128_S512x4096_1_1_0_0_n_n : DotDims S512x128 S4096x128 S512x4096 where
  lhsContracting := [1]
  rhsContracting := [1]
  lhsNonContracting := [0]
  rhsNonContracting := [0]
  lhsBatch := []
  rhsBatch := []
  wf := dot_S512x128_S4096x128_S512x4096_1_1_0_0_n_n_wf

abbrev win0_0 : Pipeline.Window sig grid0 :=
  Pipeline.Window.ofSpec (Memref.whole main_arg0) S1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x4096x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x4096x128 : Shape := ⟨3, ![8, 4096, 128]⟩
abbrev S8x4096x4096 : Shape := ⟨3, ![8, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S8x4096x128, .f32⟩
  | .hbm, ⟨2, _⟩ => ⟨S8x4096x4096, .f32⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  dot_S8x4096x128_S8x4096x128_S8x4096x4096_2_2_1_1_0_0_wf : DotDims.WF S8x4096x128 S8x4096x128 S8x4096x4096 [2] [2] [1] [1] [0] [0]

variable [Facts₀]

def dot_S8x4096x128_S8x4096x128_S8x4096x4096_2_2_1_1_0_0 : DotDims S8x4096x128 S8x4096x128 S8x4096x4096 where
  lhsContracting := [2]
  rhsContracting := [2]
  lhsNonContracting := [1]
  rhsNonContracting := [1]
  lhsBatch := [0]
  rhsBatch := [0]
  wf := dot_S8x4096x128_S8x4096x128_S8x4096x4096_2_2_1_1_0_0_wf

class Facts : Prop extends Facts₀ where

variable [Facts]
-- ==== Proof.BlockProduct.lean ====
/-
  One grid point's arithmetic, read at an index.  The body loads a [1, 512, 128] block of the left operand and a
  [1, 4096, 128] block of the right operand, drops the leading unit axis of each, narrows both to bf16 (at the exact
  instance a change of format is the identity), multiplies them on the matrix unit contracting the last axis of both
  into a zero accumulator, and puts the unit axis back.  So entry (u, p, q) of what it stores is
      ∑ k < 128,  left (0, p, k) · right (0, q, k),
  a plain finite sum on the extended reals: the zero accumulator contributes 0 + _, which is harmless at every value.
-/
import proofs.«141193_j63161789055646_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.BlockProduct

open Cert.KernelIdeal Cert.KernelIdeal.Gen Idealize.ShloMosaic Idealize.ShloMosaic.ValueIdx

/-! ## The contraction's index maps, coordinate by coordinate

The matrix product's dimension numbers contract axis 1 of the left factor with axis 1 of the right factor and have no
batch axis; the result's axes are the left factor's row axis, then the right factor's row axis. -/

/-- The left factor is read in the result's row. -/
theorem lhs_row (j : S512x4096.Idx) (q : dot_S512x128_S4096x128_S512x4096_1_1_0_0_n_n.contr.Idx) :
    (dot_S512x128_S4096x128_S512x4096_1_1_0_0_n_n.lhsIdx j q 0).val = (j 0).val := by
  unfold DotDims.lhsIdx
  rw [dif_neg (show ¬(0 : Fin S512x128.rank) ∈ dot_S512x128_S4096x128_S512x4096_1_1_0_0_n_n.lhsBatch by decide),
    dif_pos (show (0 : Fin S512x128.rank) ∈ dot_S512x128_S4096x128_S512x4096_1_1_0_0_n_n.lhsNonContracting by decide)]
  rfl

/-- The left factor's column is the contracted position. -/
theorem lhs_col (j : S512x4096.Idx) (q : dot_S512x128_S4096x128_S512x4096_1_1_0_0_n_n.contr.Idx) :
    (dot_S512x128_S4096x128_S512x4096_1_1_0_0_n_n.lhsIdx j q 1).val = (q ⟨0, by decide⟩).val :=
  dot_S512x128_S4096x128_S512x4096_1_1_0_0_n_n.lhsIdx_val_of_single rfl j q

/-- The right factor is read in the row the result's COLUMN names: the product is against the transpose. -/
theorem rhs_row (j : S512x4096.Idx) (q : dot_S512x128_S4096x128_S512x4096_1_1_0_0_n_n.contr.Idx) :
    (dot_S512x128_S4096x128_S512x4096_1_1_0_0_n_n.rhsIdx j q 0).val = (j 1).val := by
  unfold DotDims.rhsIdx
  rw [dif_neg (show ¬(0 : Fin S4096x128.rank) ∈ dot_S512x128_S4096x128_S512x4096_1_1_0_0_n_n.rhsBatch by decide),
    dif_pos (show (0 : Fin S4096x128.rank) ∈ dot_S512x128_S4096x128_S512x4096_1_1_0_0_n_n.rhsNonContracting by decide)]
  rfl

/-- The right factor's column is the contracted position too. -/
theorem rhs_col (j : S512x4096.Idx) (q : dot_S512x128_S4096x128_S512x4096_1_1_0_0_n_n.contr.Idx) :
    (dot_S512x128_S4096x128_S512x4096_1_1_0_0_n_n.rhsIdx j q 1).val = (q ⟨0, by decide⟩).val :=
  dot_S512x128_S4096x128_S512x4096_1_1_0_0_n_n.rhsIdx_val_of_single rfl j q

/-! ## The matrix product of two blocks at an entry -/

/-- Entry (p, q) of the product of a [512, 128] block with the transpose of a [4096, 128] block, accumulated into
    zero, is the sum over the 128 contracted positions of the two rows' products. -/
theorem product_apply (a : FVec Ideal S512x128 .bf16) (b : FVec Ideal S4096x128 .bf16) (p : Fin 512) (q : Fin 4096) :
    matmul dot_S512x128_S4096x128_S512x4096_1_1_0_0_n_n none a b (constant (F := Ideal) S512x4096 .f32 0x00000000#32) (ix2 p q)
      = ∑ k : Fin 128, a (ix2 p k) * b (ix2 q k) := by
  refine (Ideal.matmul_constant_zero_apply dot_S512x128_S4096x128_S512x4096_1_1_0_0_n_n none a b (ix2 p q)).trans ?_
  rw [← Equiv.sum_comp (contrEquiv1 dot_S512x128_S4096x128_S512x4096_1_1_0_0_n_n 128 rfl rfl).symm]
  refine Finset.sum_congr rfl fun k _ => ?_
  have hk := contrEquiv1_symm_val dot_S512x128_S4096x128_S512x4096_1_1_0_0_n_n 128 rfl rfl k
  have el : dot_S512x128_S4096x128_S512x4096_1_1_0_0_n_n.lhsIdx (ix2 p q)
      ((contrEquiv1 dot_S512x128_S4096x128_S512x4096_1_1_0_0_n_n 128 rfl rfl).symm k) = ix2 p k :=
    funext fun d => Fin.ext (by
      match d with
      | ⟨0, _⟩ => exact lhs_row _ _
      | ⟨1, _⟩ => exact (lhs_col _ _).trans hk)
  have er : dot_S512x128_S4096x128_S512x4096_1_1_0_0_n_n.rhsIdx (ix2 p q)
      ((contrEquiv1 dot_S512x128_S4096x128_S512x4096_1_1_0_0_n_n 128 rfl rfl).symm k) = ix2 q k :=
    funext fun d => Fin.ext (by
      match d with
      | ⟨0, _⟩ => exact rhs_row _ _
      | ⟨1, _⟩ => exact (rhs_col _ _).trans hk)
  rw [el, er]

/-! ## What the body stores, at an entry -/

/-- Entry (u, p, q) of the block the body stores, from the two blocks it loaded. -/
theorem stored_apply (x : Vec Ideal S1x512x128 .f32) (w : Vec Ideal S1x4096x128 .f32) (u : Fin 1) (p : Fin 512) (q : Fin 4096) :
    k0_pay1 (F := Ideal) x w (ix3 u p q) = ∑ k : Fin 128, x (ix3 (0 : Fin 1) p k) * w (ix3 (0 : Fin 1) q k) := by
  unfold k0_pay1
  refine (shapeCast_ab_1ab_apply _ _ u p q).trans ?_
  refine (product_apply _ _ p q).trans ?_
  refine Finset.sum_congr rfl fun k _ => ?_
  rw [truncf_apply, truncf_apply, shapeCast_1ab_ab_apply, shapeCast_1ab_ab_apply]

end Cert.KernelIdeal.BlockProduct

end
-- ==== Proof.ExpertProduct.lean ====
/-
  The specification both programs meet.  For eight experts, the result at (e, n, o) is the inner product over the 128
  features of row n of expert e's inputs with row o of expert e's weights:
      out[e, n, o] = ∑ k < 128,  x[e, n, k] · w[e, o, k],
  read on the extended reals.  Nothing beyond the order of a finite sum's terms separates the two programs, so no law
  that needs finite values is used anywhere: the statement holds at infinite entries as well.
-/
import Idealize.ShloMosaic.PureOps.Ideal
import Idealize.ShloMosaic.Lib.ValueIdx

noncomputable section

open scoped BigOperators

namespace Cert.ExpertProduct

open Idealize.ShloMosaic Idealize.ShloMosaic.ValueIdx

/-- One entry: expert `e`, input row `n`, weight row `o`. -/
def entry (x w : (⟨3, ![8, 4096, 128]⟩ : Shape).Idx → EReal) (e : Fin 8) (n : Fin 4096) (o : Fin 4096) : EReal :=
  ∑ k : Fin 128, x (ix3 e n k) * w (ix3 e o k)

/-- The whole [8, 4096, 4096] result as one function of the two [8, 4096, 128] argument arrays. -/
def result (x w : (⟨3, ![8, 4096, 128]⟩ : Shape).Idx → EReal) : (⟨3, ![8, 4096, 4096]⟩ : Shape).Idx → EReal :=
  fun i => entry x w (i 0) (i 1) (i 2)

theorem result_apply (x w : (⟨3, ![8, 4096, 128]⟩ : Shape).Idx → EReal) (e : Fin 8) (n : Fin 4096) (o : Fin 4096) :
    result x w (ix3 e n o) = ∑ k : Fin 128, x (ix3 e n k) * w (ix3 e o k) := rfl

end Cert.ExpertProduct

end
-- ==== Proof.KernelArray.lean ====
/-
  The kernel's result array, as one function of its two argument arrays.  The grid has 8 × 8 points; point (e, r)
  reads rows 512·r … 512·r + 511 of expert e's inputs and all 4096 rows of expert e's weights, and writes back the
  block [e, 512·r … 512·r + 511, 0 … 4095] of the result.  Every block is a restriction of the ONE function
  `ExpertProduct.result` of the two whole arrays (what a point stores is the product of its two blocks, and the blocks
  are the arrays read at the block's offset), and the 64 blocks tile the result, so after the run the array is that
  function.
-/
import proofs.«141193_j63161789055646_2_alg».proof.Proof.Gen.KernelIdeal.Value
import proofs.«141193_j63161789055646_2_alg».proof.Proof.BlockProduct
import proofs.«141193_j63161789055646_2_alg».proof.Proof.ExpertProduct

noncomputable section

open scoped BigOperators

namespace Cert.KernelIdeal.ArrayValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem offset_zero : (![0, 0, 0] : Fin 3 → Nat) = fun _ => 0 := funext fun a => by fin_cases a <;> rfl

/-! ## Where each point's blocks sit -/

/-- The three index maps over the 64 grid points: the inputs' block follows the result's block on the expert axis and
    on the row axis and has one block on the feature axis; the weights' block follows it on the expert axis only; the
    result's block spans the whole last axis; and the result's block indices on the first two axes stay below 8. -/
theorem block_positions : ∀ t : Fin cfg0.N,
    win0_0.index t (0 : Fin 3) = win0_2.index t (0 : Fin 3)
    ∧ win0_0.index t (1 : Fin 3) = win0_2.index t (1 : Fin 3)
    ∧ win0_0.index t (2 : Fin 3) = 0
    ∧ win0_1.index t (0 : Fin 3) = win0_2.index t (0 : Fin 3)
    ∧ win0_1.index t (1 : Fin 3) = 0
    ∧ win0_1.index t (2 : Fin 3) = 0
    ∧ win0_2.index t (2 : Fin 3) = 0
    ∧ win0_2.index t (0 : Fin 3) ≤ 7
    ∧ win0_2.index t (1 : Fin 3) ≤ 7 :=
  (by decide +kernel : ∀ t : Fin grid0.N, _)

/-- Every (expert, row block) pair is some grid point's. -/
theorem every_block : ∀ (e : Fin 8) (r : Fin 8), ∃ t : Fin cfg0.N, win0_2.index t = ![e.val, r.val, 0] :=
  (by decide +kernel : ∀ (e : Fin 8) (r : Fin 8), ∃ t : Fin grid0.N, win0_2.index t = ![e.val, r.val, 0])

/-! ## The input blocks are the argument arrays read at the block's offset -/

/-- Row `p`, feature `k` of the inputs' block at point `t` is the inputs array at the result block's expert, row
    512 · (the result block's row index) + `p`, feature `k`. -/
theorem inputs_block (c : Dev nD) (t : Fin cfg0.N) (p : Fin 512) (k : Fin 128) (I : S8x4096x128.Idx)
    (h0 : (I 0).val = win0_2.index t (0 : Fin 3)) (h1 : (I 1).val = win0_2.index t (1 : Fin 3) * 512 + p.val)
    (h2 : (I 2).val = k.val) :
    iblk m c 0 t (ix3 (0 : Fin 1) p k) = V m c main_arg0 I := by
  obtain ⟨e0, e1, e2, e3, e4, e5, e6, e7, e8⟩ := block_positions t
  show V m c main_arg0 (((cfg0.win 0).blk t).view.emb (ix3 (0 : Fin 1) p k)) = V m c main_arg0 I
  refine congrArg (V m c main_arg0) (funext fun a => Fin.ext ?_)
  match a with
  | ⟨0, _⟩ => show win0_0.index t (0 : Fin 3) * 1 + 1 * 0 = (I 0).val; omega
  | ⟨1, _⟩ => show win0_0.index t (1 : Fin 3) * 512 + 1 * p.val = (I 1).val; omega
  | ⟨2, _⟩ => show win0_0.index t (2 : Fin 3) * 128 + 1 * k.val = (I 2).val; omega

/-- Row `q`, feature `k` of the weights' block at point `t` is the weights array at the result block's expert, row
    `q`, feature `k`: the whole of that expert's weights is one block. -/
theorem weights_block (c : Dev nD) (t : Fin cfg0.N) (q : Fin 4096) (k : Fin 128) (I : S8x4096x128.Idx)
    (h0 : (I 0).val = win0_2.index t (0 : Fin 3)) (h1 : (I 1).val = q.val) (h2 : (I 2).val = k.val) :
    iblk m c 1 t (ix3 (0 : Fin 1) q k) = V m c main_arg1 I := by
  obtain ⟨e0, e1, e2, e3, e4, e5, e6, e7, e8⟩ := block_positions t
  show V m c main_arg1 (((cfg0.win 1).blk t).view.emb (ix3 (0 : Fin 1) q k)) = V m c main_arg1 I
  refine congrArg (V m c main_arg1) (funext fun a => Fin.ext ?_)
  match a with
  | ⟨0, _⟩ => show win0_1.index t (0 : Fin 3) * 1 + 1 * 0 = (I 0).val; omega
  | ⟨1, _⟩ => show win0_1.index t (1 : Fin 3) * 4096 + 1 * q.val = (I 1).val; omega
  | ⟨2, _⟩ => show win0_1.index t (2 : Fin 3) * 128 + 1 * k.val = (I 2).val; omega

/-! ## What a point writes back is a block of the specification -/

/-- Point `t` writes back block `t` of `ExpertProduct.result` of the argument arrays as the region finds them. -/
theorem flushed_eq (c : Dev nD) (t : Fin cfg0.N) :
    (dats m 0 c).flushed 2 t
      = ((cfg0.win 2).blk t).view.read (Elt Ideal) (Cert.ExpertProduct.result (V m c main_arg0) (V m c main_arg1)) := by
  rw [Value.flushed2]
  unfold out0_2
  rw [View.canon_unit_zero offset_zero]
  simp only [View.ld_unit_zero (S := S1x512x128) offset_zero, View.ld_unit_zero (S := S1x4096x128) offset_zero]
  show (k0_pay1 (F := Ideal) (iblk m c 0 t) (iblk m c 1 t) : S1x512x4096.Idx → EReal)
    = fun j : S1x512x4096.Idx =>
        Cert.ExpertProduct.result (V m c main_arg0) (V m c main_arg1) (((cfg0.win 2).blk t).view.emb j)
  funext j
  obtain ⟨u, p, q, rfl⟩ : ∃ (u : Fin 1) (p : Fin 512) (q : Fin 4096), j = ix3 u p q := ⟨j 0, j 1, j 2, eq_ix3 j⟩
  refine (BlockProduct.stored_apply (iblk m c 0 t) (iblk m c 1 t) u p q).trans ?_
  unfold Cert.ExpertProduct.result Cert.ExpertProduct.entry
  refine Finset.sum_congr rfl fun k _ => ?_
  have hu : u.val = 0 := by omega
  refine congrArg₂ (· * ·) (inputs_block m c t p k _ ?_ ?_ ?_) (weights_block m c t q k _ ?_ ?_ ?_)
  · show win0_2.index t (0 : Fin 3) * 1 + 1 * u.val = win0_2.index t (0 : Fin 3); omega
  · show win0_2.index t (1 : Fin 3) * 512 + 1 * p.val = win0_2.index t (1 : Fin 3) * 512 + p.val; omega
  · rfl
  · show win0_2.index t (0 : Fin 3) * 1 + 1 * u.val = win0_2.index t (0 : Fin 3); omega
  · obtain ⟨e0, e1, e2, e3, e4, e5, e6, e7, e8⟩ := block_positions t
    show win0_2.index t (2 : Fin 3) * 4096 + 1 * q.val = q.val; omega
  · rfl

/-! ## The blocks tile the result -/

/-- An index of the result is in point `t`'s block iff each coordinate is in the block's range on its axis. -/
theorem mem_block (t : Fin cfg0.N) (i : S8x4096x4096.Idx) :
    i ∈ ((cfg0.win 2).blk t).view.set ↔ ∀ a : Fin 3, win0_2.index t a * S1x512x4096.size a ≤ (i a).val
      ∧ (i a).val < win0_2.index t a * S1x512x4096.size a + S1x512x4096.size a := by
  show i ∈ ((View.whole main_v0).slice (win0_2.rect t)).set ↔ _
  rw [View.set_slice_whole, Rect.mem_set_unit]
  exact Iff.rfl

/-- Every index (e, n, o) of the result lies in the block of the point with expert `e` and row block `n / 512`. -/
theorem covered (i : S8x4096x4096.Idx) :
    ∃ t : Fin cfg0.N, (cfg0.win 2).flush t = true ∧ i ∈ ((cfg0.win 2).blk t).view.set := by
  have hi0 : (i 0).val < 8 := (i 0).isLt
  have hi1 : (i 1).val < 4096 := (i 1).isLt
  have hi2 : (i 2).val < 4096 := (i 2).isLt
  obtain ⟨t, ht⟩ := every_block ⟨(i 0).val, hi0⟩ ⟨(i 1).val / 512, by omega⟩
  have q0 : win0_2.index t (0 : Fin 3) = (i 0).val := congrFun ht 0
  have q1 : win0_2.index t (1 : Fin 3) = (i 1).val / 512 := congrFun ht 1
  have q2 : win0_2.index t (2 : Fin 3) = 0 := congrFun ht 2
  refine ⟨t, flush0_2 t, ?_⟩
  rw [mem_block]
  intro a
  match a with
  | ⟨0, _⟩ =>
    show win0_2.index t (0 : Fin 3) * 1 ≤ (i 0).val ∧ (i 0).val < win0_2.index t (0 : Fin 3) * 1 + 1
    omega
  | ⟨1, _⟩ =>
    show win0_2.index t (1 : Fin 3) * 512 ≤ (i 1).val ∧ (i 1).val < win0_2.index t (1 : Fin 3) * 512 + 512
    omega
  | ⟨2, _⟩ =>
    show win0_2.index t (2 : Fin 3) * 4096 ≤ (i 2).val ∧ (i 2).val < win0_2.index t (2 : Fin 3) * 4096 + 4096
    omega

/-! ## The array after the run, and the run -/

/-- After the run the result array is the specification of the argument arrays as launched. -/
theorem final (c : Dev nD) :
    (dats m 0 c).arrAt 2 cfg0.N
      = Cert.ExpertProduct.result (m ((c : Thread nD τ).loc main_arg0)) (m ((c : Thread nD τ).loc main_arg1)) :=
  (dats m 0 c).arrAt_eq_of_cover 2
    (Cert.ExpertProduct.result (V m c main_arg0) (V m c main_arg1)) (fun t _ => flushed_eq m c t) covered

/-- Every weakly fair execution of the kernel's program terminates with the result array at the specification and
    the arguments unchanged. -/
theorem run : θ_run defs (onTc (τ := τ) (main (F := Ideal))) ⟨m, fun _ => 0, ρ⟩ fun r => ∀ c : Dev nD,
      r.2.mem ((c : Thread nD τ).loc main_v0)
        = Cert.ExpertProduct.result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.ArrayValue

end
-- ==== Proof.ReferenceProduct.lean ====
/-
  The reference is the specification.  Its one operation is a general dot product with the expert axis as batch axis
  and the feature axis contracted on both sides; read at an index (e, n, o) it is the sum over k of the left operand at
  (e, n, k) times the right operand at (e, o, k), which is the specification's entry word for word.
-/
import proofs.«141193_j63161789055646_2_alg».proof.Proof.Gen.ReferenceIdeal.Read
import proofs.«141193_j63161789055646_2_alg».proof.Proof.ExpertProduct

noncomputable section

open scoped BigOperators

namespace Cert.ReferenceIdeal.RefValue

open Cert.ReferenceIdeal Idealize.ShloMosaic Idealize.ShloMosaic.ValueIdx

/-- The dot product of the two argument arrays (the reference's one stage) is the specification. -/
theorem dot_eq_result (x w : (⟨S8x4096x128, .f32⟩ : BufTy).Contents (Elt Ideal)) :
    Read.val_main_v0 (F := Ideal) x w = Cert.ExpertProduct.result x w := by
  funext i
  rw [Read.val_main_v0_apply]
  show _ = ∑ k : Fin 128, x (ix3 (i 0) (i 1) k) * w (ix3 (i 0) (i 2) k)
  refine Finset.sum_congr rfl fun k _ => ?_
  have el : Read.lidx_main_v0 i k = ix3 (i 0) (i 1) k :=
    funext fun a => by match a with | ⟨0, _⟩ => rfl | ⟨1, _⟩ => rfl | ⟨2, _⟩ => rfl
  have er : Read.ridx_main_v0 i k = ix3 (i 0) (i 2) k :=
    funext fun a => by match a with | ⟨0, _⟩ => rfl | ⟨1, _⟩ => rfl | ⟨2, _⟩ => rfl
  exact congrArg₂ (· * ·) (congrArg x el) (congrArg w er)

end Cert.ReferenceIdeal.RefValue

end
-- ==== Proof.lean ====
/-
  A grouped matrix product over eight experts, out[e] = x[e] · w[e]ᵀ, computed by a tiled kernel against one general
  dot product.

  The kernel walks an 8 × 8 grid: at point (e, r) it multiplies a [512, 128] block of expert e's inputs (rows
  512·r … 512·r + 511) with the transpose of the whole [4096, 128] weight matrix of expert e, both narrowed to bf16 on
  the way into the matrix unit, accumulating into zero, and writes the [512, 4096] product as block (e, r) of the
  result.  The reference contracts the feature axis of the two [8, 4096, 128] arrays with the expert axis as batch axis.

  On the extended reals a change of float format is the identity and the matrix unit's product is the textbook sum, so
  both programs end with
      out[e, n, o] = ∑ k < 128,  x[e, n, k] · w[e, o, k]
  (`ExpertProduct.result`): the kernel because each written block is that function restricted to the block and the 64
  blocks tile the result (`KernelArray`, over `BlockProduct`: one point's arithmetic at an entry), the reference because
  its dot product read at an index is that sum (`ReferenceProduct`).  No step needs the inputs to be finite.  The three
  programs terminate without faults and leave their arguments unchanged; the idealization rewrote no operation, so
  there is nothing to preserve beyond that.
-/
import proofs.«141193_j63161789055646_2_alg».proof.Defs
import proofs.«141193_j63161789055646_2_alg».proof.Proof.Gen.Kernel
import proofs.«141193_j63161789055646_2_alg».proof.Proof.Gen.Kernel.Skeleton
import proofs.«141193_j63161789055646_2_alg».proof.Proof.Gen.Kernel.Launch
import proofs.«141193_j63161789055646_2_alg».proof.Proof.Gen.Kernel.Points
import proofs.«141193_j63161789055646_2_alg».proof.Proof.Gen.Kernel.Frame
import proofs.«141193_j63161789055646_2_alg».proof.Proof.Gen.KernelIdeal
import proofs.«141193_j63161789055646_2_alg».proof.Proof.Gen.KernelIdeal.Skeleton
import proofs.«141193_j63161789055646_2_alg».proof.Proof.Gen.KernelIdeal.Launch
import proofs.«141193_j63161789055646_2_alg».proof.Proof.Gen.KernelIdeal.Points
import proofs.«141193_j63161789055646_2_alg».proof.Proof.Gen.KernelIdeal.Frame
import proofs.«141193_j63161789055646_2_alg».proof.Proof.Gen.ReferenceIdeal
import proofs.«141193_j63161789055646_2_alg».proof.Proof.Gen.Pre_finite_inputs
import proofs.«141193_j63161789055646_2_alg».proof.Proof.Gen.KernelIdeal.Value
import proofs.«141193_j63161789055646_2_alg».proof.Proof.Gen.ReferenceIdeal.Run
import proofs.«141193_j63161789055646_2_alg».proof.Proof.Gen.ReferenceIdeal.Read
import proofs.«141193_j63161789055646_2_alg».proof.Proof.KernelArray
import proofs.«141193_j63161789055646_2_alg».proof.Proof.ReferenceProduct
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments unchanged. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the result array at `ExpertProduct.result` of the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v0_eq, Cert.ReferenceIdeal.RefValue.dot_eq_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
